-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x1 .f32) (main_arg2 : FVec F S128x128 .f32) (main_arg3 : FVec F S128 .f32) (main_arg4 : FVec F S128x128 .f32) (main_arg5 : FVec F S128 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S800000x1 : Shape := ⟨2, ![800000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 30
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S128x128, .f32⟩
  | .hbm, ⟨24, _⟩ => ⟨S128x128, .bf16⟩
  | .hbm, ⟨25, _⟩ => ⟨S128x128, .f32⟩
  | .hbm, ⟨26, _⟩ => ⟨S128x128, .bf16⟩
  | .hbm, ⟨27, _⟩ => ⟨S1x128, .f32⟩
  | .hbm, ⟨28, _⟩ => ⟨S1x128, .f32⟩
  | .hbm, ⟨29, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x128 : Shape := ⟨2, ![800000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .i1⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .i1⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BiInteraction.lean ====
/-
  The node update of a bi-interaction graph layer, as ONE function of whole arrays over the extended reals.

  Given a node table `E` and an aggregated-neighbourhood table `N` (both 50000 × 128), two weight matrices
  `W₁ W₂` (128 × 128, indexed output feature first) and two bias vectors `b₁ b₂` (128), the layer's output is

      out[r, j] = ℓ( Σₖ (E[r,k] + N[r,k]) · W₁[j,k] + b₁[j] )  +  ℓ( Σₖ (E[r,k] · N[r,k]) · W₂[j,k] + b₂[j] )

  where `ℓ` is the leaky rectifier of slope `c`: `ℓ x = x` when `0 ≤ x`, else `c · x`. Both the slope and the
  threshold are kept as the float words the programs print (the slope is the single-precision word nearest 0.01);
  they are never evaluated, because the same words stand on both sides of every equation proved about this
  function. Sums, products and the comparison are those of the extended reals, so nothing here needs the entries
  to be finite: row `r` of the output depends on row `r` of `E` and `N` only, and no law beyond reading a matrix
  product as a sum over the contracted index is used to meet it.
-/
import Idealize.ShloMosaic.PureOps.Ideal
import Idealize.ShloMosaic.Lib.ValueIdx

noncomputable section

namespace Cert.BiInteraction

open Idealize.ShloMosaic Idealize.ShloMosaic.ValueIdx

/-- A 50000 × 128 table of extended reals: one row of 128 features per node. -/
abbrev NodeTable := (⟨2, ![50000, 128]⟩ : Shape).Idx → EReal
/-- A 128 × 128 weight matrix, indexed (output feature, input feature). -/
abbrev Weights := (⟨2, ![128, 128]⟩ : Shape).Idx → EReal
/-- A bias vector over the 128 output features. -/
abbrev Bias := (⟨1, ![128]⟩ : Shape).Idx → EReal

/-- The leaky rectifier: the identity on `0 ≤ x` (the ordered comparison of extended reals, so `⊤` passes and `⊥`
    does not), the slope times `x` elsewhere. -/
def leaky (x : EReal) : EReal :=
  Scalar.select (Ideal.cmp .oge x (Ideal.ofBits .f32 0x00000000#32)) x (Ideal.ofBits .f32 0x3C23D70A#32 * x)

/-- One output feature `j` of one node `r` under one affine map: the row of `X` against row `j` of `W`, plus the
    bias. -/
def affine (X : NodeTable) (W : Weights) (b : Bias) (r : Fin 50000) (j : Fin 128) : EReal :=
  (∑ k : Fin 128, X (ix2 r k) * W (ix2 j k)) + b (ix1 j)

/-- The layer: the rectified affine image of the sum `E + N` plus that of the product `E · N`. -/
def layer (E N : NodeTable) (W₁ : Weights) (b₁ : Bias) (W₂ : Weights) (b₂ : Bias) : NodeTable := fun i =>
  leaky (affine (fun a => E a + N a) W₁ b₁ (i 0) (i 1)) + leaky (affine (fun a => E a * N a) W₂ b₂ (i 0) (i 1))

end Cert.BiInteraction

end
-- ==== Proof.ReferenceIsSpec.lean ====
/-
  The reference program computes the bi-interaction layer.

  Read one operation at a time, the reference's result at an index `i = (r, j)` is
      ℓ( Σₖ (E + N)[r,k] · W₁ᵀ[k,j] + b₁[j] ) + ℓ( Σₖ (E · N)[r,k] · W₂ᵀ[k,j] + b₂[j] ),
  where `N` is the reference's own neighbourhood aggregate (a gather of source rows scaled by the edge weights and
  summed into destination rows — kept here as one opaque array, since the kernel computes the very same term),
  `Wᵀ[k,j] = W[j,k]` is the transposed weight matrix the dot contracts against, and a bias is laid out as one row
  and repeated down the 50000 rows. Identifying the index each operation reads its operand at — (r,k) on the left of
  the dot, (j,k) in the untransposed weights, j in the bias — turns the composed term into `BiInteraction.layer`.
  The argument goes stage by stage: each branch's pre-activation is `affine`, each branch is its rectified image,
  and the result is their sum.
-/
import proofs.«158024_j9105330667541_1_alg».proof.Proof.Gen.ReferenceIdeal.Read
import proofs.«158024_j9105330667541_1_alg».proof.Proof.BiInteraction

noncomputable section

namespace Cert.ReferenceIdeal.LayerValue

open Cert.ReferenceIdeal Cert.ReferenceIdeal.Read Idealize.ShloMosaic Idealize.ShloMosaic.ValueIdx Cert.BiInteraction

/-- The left operand of either dot, at output index (r, j) and contracted position `k`, is read at (r, k). -/
theorem left_index_sum (r : Fin 50000) (j k : Fin 128) : lidx_main_v14 (ix2 r j) k = ix2 r k :=
  funext fun a => Fin.ext (by match a with | ⟨0, _⟩ => rfl | ⟨1, _⟩ => rfl)
theorem left_index_prod (r : Fin 50000) (j k : Fin 128) : lidx_main_v25 (ix2 r j) k = ix2 r k :=
  funext fun a => Fin.ext (by match a with | ⟨0, _⟩ => rfl | ⟨1, _⟩ => rfl)

/-- The right operand is a transposed weight matrix read at (k, j): the untransposed matrix at (j, k). -/
theorem weight_index_sum (r : Fin 50000) (j k : Fin 128) : idx_main_v13 (ridx_main_v14 (ix2 r j) k) = ix2 j k :=
  funext fun a => Fin.ext (by match a with | ⟨0, _⟩ => rfl | ⟨1, _⟩ => rfl)
theorem weight_index_prod (r : Fin 50000) (j k : Fin 128) : idx_main_v24 (ridx_main_v25 (ix2 r j) k) = ix2 j k :=
  funext fun a => Fin.ext (by match a with | ⟨0, _⟩ => rfl | ⟨1, _⟩ => rfl)

/-- A bias laid out as a row and repeated down the rows is read, at (r, j), at `j`. -/
theorem bias_index_sum (r : Fin 50000) (j : Fin 128) : idx_main_v15 (idx_main_v16 (ix2 r j)) = ix1 j :=
  funext fun a => Fin.ext (by match a with | ⟨0, _⟩ => rfl)
theorem bias_index_prod (r : Fin 50000) (j : Fin 128) : idx_main_v26 (idx_main_v27 (ix2 r j)) = ix1 j :=
  funext fun a => Fin.ext (by match a with | ⟨0, _⟩ => rfl)

/-- The first branch before the rectifier: the dot of `E + N` against the transposed first weights, plus the first
    bias — the affine map of the sum. -/
theorem preact_sum_apply (x0 : (⟨S50000x128, .f32⟩ : BufTy).Contents (Elt Ideal)) (x1 : (⟨S800000x1, .f32⟩ : BufTy).Contents (Elt Ideal))
    (x2 : (⟨S128x128, .f32⟩ : BufTy).Contents (Elt Ideal)) (x3 : (⟨S128, .f32⟩ : BufTy).Contents (Elt Ideal))
    (x6 x7 : (⟨S800000, .i32⟩ : BufTy).Contents (Elt Ideal)) (r : Fin 50000) (j : Fin 128) :
    val_main_v17 (F := Ideal) x0 x1 x2 x3 x6 x7 (ix2 r j)
      = affine (fun a => x0 a + val_main_v11 (F := Ideal) x0 x1 x6 x7 a) x2 x3 r j := by
  rw [val_main_v17_apply, val_main_v14_apply, val_main_v16_apply, val_main_v15_apply, bias_index_sum]
  unfold affine
  refine congrArg (· + x3 (ix1 j)) (Finset.sum_congr rfl fun k _ => ?_)
  rw [left_index_sum, val_main_v12_apply, val_main_v13_apply, weight_index_sum]
  rfl

/-- The second branch before the rectifier: the dot of the entrywise product `E · N` against the transposed second
    weights, plus the second bias. -/
theorem preact_prod_apply (x0 : (⟨S50000x128, .f32⟩ : BufTy).Contents (Elt Ideal)) (x1 : (⟨S800000x1, .f32⟩ : BufTy).Contents (Elt Ideal))
    (x4 : (⟨S128x128, .f32⟩ : BufTy).Contents (Elt Ideal)) (x5 : (⟨S128, .f32⟩ : BufTy).Contents (Elt Ideal))
    (x6 x7 : (⟨S800000, .i32⟩ : BufTy).Contents (Elt Ideal)) (r : Fin 50000) (j : Fin 128) :
    val_main_v28 (F := Ideal) x0 x1 x4 x5 x6 x7 (ix2 r j)
      = affine (fun a => x0 a * val_main_v11 (F := Ideal) x0 x1 x6 x7 a) x4 x5 r j := by
  rw [val_main_v28_apply, val_main_v25_apply, val_main_v27_apply, val_main_v26_apply, bias_index_prod]
  unfold affine
  refine congrArg (· + x5 (ix1 j)) (Finset.sum_congr rfl fun k _ => ?_)
  rw [left_index_prod, val_main_v23_apply, val_main_v24_apply, weight_index_prod]
  rfl

/-- The first branch: the pre-activation where it is at least zero, the slope times it elsewhere. -/
theorem branch_sum_apply (x0 : (⟨S50000x128, .f32⟩ : BufTy).Contents (Elt Ideal)) (x1 : (⟨S800000x1, .f32⟩ : BufTy).Contents (Elt Ideal))
    (x2 : (⟨S128x128, .f32⟩ : BufTy).Contents (Elt Ideal)) (x3 : (⟨S128, .f32⟩ : BufTy).Contents (Elt Ideal))
    (x6 x7 : (⟨S800000, .i32⟩ : BufTy).Contents (Elt Ideal)) (r : Fin 50000) (j : Fin 128) :
    val_main_v22 (F := Ideal) x0 x1 x2 x3 x6 x7 (ix2 r j)
      = leaky (affine (fun a => x0 a + val_main_v11 (F := Ideal) x0 x1 x6 x7 a) x2 x3 r j) := by
  rw [val_main_v22_apply, val_main_v19_apply, val_main_v21_apply, val_main_v18_apply, val_main_v20_apply,
    val_main_cst_1_apply, val_main_cst_2_apply, preact_sum_apply]
  generalize affine (fun a => x0 a + val_main_v11 (F := Ideal) x0 x1 x6 x7 a) x2 x3 r j = y
  rfl

/-- The second branch likewise. -/
theorem branch_prod_apply (x0 : (⟨S50000x128, .f32⟩ : BufTy).Contents (Elt Ideal)) (x1 : (⟨S800000x1, .f32⟩ : BufTy).Contents (Elt Ideal))
    (x4 : (⟨S128x128, .f32⟩ : BufTy).Contents (Elt Ideal)) (x5 : (⟨S128, .f32⟩ : BufTy).Contents (Elt Ideal))
    (x6 x7 : (⟨S800000, .i32⟩ : BufTy).Contents (Elt Ideal)) (r : Fin 50000) (j : Fin 128) :
    val_main_v33 (F := Ideal) x0 x1 x4 x5 x6 x7 (ix2 r j)
      = leaky (affine (fun a => x0 a * val_main_v11 (F := Ideal) x0 x1 x6 x7 a) x4 x5 r j) := by
  rw [val_main_v33_apply, val_main_v30_apply, val_main_v32_apply, val_main_v29_apply, val_main_v31_apply,
    val_main_cst_3_apply, val_main_cst_4_apply, preact_prod_apply]
  generalize affine (fun a => x0 a * val_main_v11 (F := Ideal) x0 x1 x6 x7 a) x4 x5 r j = y
  rfl

/-- THE REFERENCE'S RESULT, as a function of its arguments, is the layer applied to the node table, the
    reference's neighbourhood aggregate, and the weights and biases as given. -/
theorem result_eq_layer (x0 : (⟨S50000x128, .f32⟩ : BufTy).Contents (Elt Ideal)) (x1 : (⟨S800000x1, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 x7 : (⟨S800000, .i32⟩ : BufTy).Contents (Elt Ideal)) :
    val_main_v34 (F := Ideal) x0 x1 x2 x3 x4 x5 x6 x7
      = layer x0 (val_main_v11 (F := Ideal) x0 x1 x6 x7) x2 x3 x4 x5 := by
  funext i
  obtain ⟨r, j, rfl⟩ : ∃ (r : Fin 50000) (j : Fin 128), i = ix2 r j := ⟨i 0, i 1, eq_ix2 i⟩
  rw [val_main_v34_apply, branch_sum_apply, branch_prod_apply]
  rfl

end Cert.ReferenceIdeal.LayerValue

end
-- ==== Proof.BlockPayload.lean ====
/-
  What the kernel's body computes on one block, read entry by entry over the extended reals.

  The body loads a 2000-row block `e` of the node table and the same rows `nh` of the neighbourhood aggregate, the
  two transposed weight matrices `w₁ w₂` (128 × 128, contracted index first) and the two biases as single rows
  `b₁ b₂` (1 × 128). It forms `e + nh` and `e · nh`, multiplies each by its weight matrix into a zero accumulator,
  adds the bias row to every row, rectifies, and adds the two branches. Changes of float format are the identity on
  extended reals and a cast to the same shape is the identity, so at entry (p, q) of the block the result is

      ℓ( Σₖ (e[p,k] + nh[p,k]) · w₁[k,q] + b₁[0,q] ) + ℓ( Σₖ (e[p,k] · nh[p,k]) · w₂[k,q] + b₂[0,q] ).

  The one step that is not entrywise is the matrix product: into a zero accumulator it is the sum, over the single
  contracted axis of length 128, of left entry (p, k) times right entry (k, q).
-/
import proofs.«158024_j9105330667541_1_alg».proof.Proof.Gen.KernelIdeal.Skeleton
import proofs.«158024_j9105330667541_1_alg».proof.Proof.BiInteraction
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.BiInteraction

/-! ## The operand indices of the block's matrix product -/

/-- The left operand's row is the output's row. -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted position. -/
theorem lhs_contracted (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand's row is the contracted position. -/
theorem rhs_contracted (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- The right operand's column is the output's column. -/
theorem rhs_column (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 × 128 block times a 128 × 128 matrix into the zero accumulator, at entry (p, q): the sum over the 128
    contracted positions `k` of left (p, k) times right (k, q). -/
theorem block_matmul_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contracted _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_contracted _ _).trans hk
    | ⟨1, _⟩ => exact rhs_column _ _)
  rw [el, er]

/-! ## The body's result at an entry of the block -/

/-- THE BODY'S STORED VALUE at entry (p, q): the two rectified affine images, of the sum and of the product of the
    loaded rows, against the loaded (already transposed) weights and the bias rows. -/
theorem payload_apply (e nh : Vec Ideal S2000x128 .f32) (w₁ w₂ : Vec Ideal S128x128 .bf16) (b₁ b₂ : Vec Ideal S1x128 .f32)
    (p : Fin 2000) (q : Fin 128) :
    k0_pay1 (F := Ideal) e nh w₁ w₂ b₁ b₂ (ix2 p q)
      = leaky ((∑ k : Fin 128, (e (ix2 p k) + nh (ix2 p k)) * w₁ (ix2 k q)) + b₁ (ix2 (0 : Fin 1) q))
        + leaky ((∑ k : Fin 128, (e (ix2 p k) * nh (ix2 p k)) * w₂ (ix2 k q)) + b₂ (ix2 (0 : Fin 1) q)) := by
  unfold k0_pay1
  simp only [shapeCast_self]
  simp only [addf_apply, select_apply, cmpf_apply, mulf_apply, broadcast_apply, block_matmul_apply, truncf_apply,
    broadcastTo_1b_ab_apply]
  rfl

/-! ## A block of the layer -/

/-- ENTRY (p, q) OF THE BODY'S RESULT IS ENTRY (r, q) OF THE LAYER, whenever the loaded rows are rows `r` of the node
    table and of the aggregate, the loaded weights are the transposes of the layer's, and the loaded bias rows are
    the layer's biases: the sums agree term by term, and everything around them is the same function. -/
theorem block_eq_layer (E N : NodeTable) (W₁ : Weights) (c₁ : Bias) (W₂ : Weights) (c₂ : Bias)
    (e nh : Vec Ideal S2000x128 .f32) (w₁ w₂ : Vec Ideal S128x128 .bf16) (b₁ b₂ : Vec Ideal S1x128 .f32)
    (r : Fin 50000) (p : Fin 2000) (q : Fin 128)
    (he : ∀ k : Fin 128, e (ix2 p k) = E (ix2 r k)) (hn : ∀ k : Fin 128, nh (ix2 p k) = N (ix2 r k))
    (hw₁ : ∀ k : Fin 128, w₁ (ix2 k q) = W₁ (ix2 q k)) (hw₂ : ∀ k : Fin 128, w₂ (ix2 k q) = W₂ (ix2 q k))
    (hb₁ : b₁ (ix2 (0 : Fin 1) q) = c₁ (ix1 q)) (hb₂ : b₂ (ix2 (0 : Fin 1) q) = c₂ (ix1 q)) :
    k0_pay1 (F := Ideal) e nh w₁ w₂ b₁ b₂ (ix2 p q) = layer E N W₁ c₁ W₂ c₂ (ix2 r q) := by
  rw [payload_apply]
  simp only [he, hn, hw₁, hw₂, hb₁, hb₂]
  rfl

end Cert.KernelIdeal.BlockValue

end
-- ==== Proof.RegionEntry.lean ====
/-
  What the kernel's region finds in the small arrays its windows stage whole.

  Before the region the program transposes each weight matrix and changes its float format, and reshapes each bias
  vector into a single row. On extended reals a change of format is the identity, so the region finds

      Wᵀ[k, j] = W[j, k]      and      bias row [0, j] = b[j]

  for the weights and biases as launched. (The 50000 × 128 aggregate the same prefix computes is not opened here: the
  layer is stated over it as one array.)
-/
import proofs.«158024_j9105330667541_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first staged weight matrix at (k, j) is the first weight argument at (j, k). -/
theorem weights₁ (c : Dev nD) (k j : Fin 128) :
    (V m c main_v13 : S128x128.Idx → EReal) (ix2 k j) = ((m ((c : Thread nD τ).loc main_arg2)) : S128x128.Idx → EReal) (ix2 j k) := by
  have e : (V m c main_v13 : S128x128.Idx → EReal)
      = truncf (F := Ideal) .bf16 (transpose S128x128 [1, 0] (m ((c : Thread nD τ).loc main_arg2)) transposes_S128x128_S128x128_1_0) bitsLt_bf16_f32 := by
    dsimp only [Gen.V, Gen.hostOps0]; after_results <;> rfl
  rw [e]
  exact transpose_ix2_apply _ _ k j

/-- The second staged weight matrix at (k, j) is the second weight argument at (j, k). -/
theorem weights₂ (c : Dev nD) (k j : Fin 128) :
    (V m c main_v15 : S128x128.Idx → EReal) (ix2 k j) = ((m ((c : Thread nD τ).loc main_arg4)) : S128x128.Idx → EReal) (ix2 j k) := by
  have e : (V m c main_v15 : S128x128.Idx → EReal)
      = truncf (F := Ideal) .bf16 (transpose S128x128 [1, 0] (m ((c : Thread nD τ).loc main_arg4)) transposes_S128x128_S128x128_1_0) bitsLt_bf16_f32 := by
    dsimp only [Gen.V, Gen.hostOps0]; after_results <;> rfl
  rw [e]
  exact transpose_ix2_apply _ _ k j

/-- The first staged bias row at (0, j) is the first bias argument at `j`. -/
theorem bias₁ (c : Dev nD) (j : Fin 128) :
    (V m c main_v16 : S1x128.Idx → EReal) (ix2 (0 : Fin 1) j) = ((m ((c : Thread nD τ).loc main_arg3)) : S128.Idx → EReal) (ix1 j) := by
  have e : (V m c main_v16 : S1x128.Idx → EReal) = shapeCast S1x128 (m ((c : Thread nD τ).loc main_arg3)) shapeCasts_S128_S1x128 := by
    dsimp only [Gen.V, Gen.hostOps0]; after_results <;> rfl
  rw [e]
  exact shapeCast_a_1a_apply _ _ 0 j

/-- The second staged bias row at (0, j) is the second bias argument at `j`. -/
theorem bias₂ (c : Dev nD) (j : Fin 128) :
    (V m c main_v17 : S1x128.Idx → EReal) (ix2 (0 : Fin 1) j) = ((m ((c : Thread nD τ).loc main_arg5)) : S128.Idx → EReal) (ix1 j) := by
  have e : (V m c main_v17 : S1x128.Idx → EReal) = shapeCast S1x128 (m ((c : Thread nD τ).loc main_arg5)) shapeCasts_S128_S1x128 := by
    dsimp only [Gen.V, Gen.hostOps0]; after_results <;> rfl
  rw [e]
  exact shapeCast_a_1a_apply _ _ 0 j

end Cert.KernelIdeal.RegionEntry

end
-- ==== Proof.BlockReads.lean ====
/-
  Where each window's block sits in its array.

  The pipeline has 25 grid points. At point `t` the two row-blocked inputs (the node table and the neighbourhood
  aggregate) and the output are each at block `t` of 2000 rows, so entry (p, k) of the block is entry
  (2000·t + p, k) of the array; the weight matrices and the bias rows are staged whole, so an entry of the block is
  the same entry of the array. A block's coordinate is always block index × block extent + 1 × the coordinate inside
  the block, and the block indices are decided once over the 25 points.

  Each read is stated for an ARBITRARY array of the window's type and only then used at the array the region finds:
  what the region finds in the aggregate's array is a long composition of host operations, and an equation about
  reading a block must never open it.
-/
import proofs.«158024_j9105330667541_1_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps over the 25 grid points: the two row-blocked inputs and the output move together, block
    `t` at point `t`; the weights and biases stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A block read off an arbitrary array of the window's type -/

theorem block_rows₀ (c : Dev nD) (A : Buf (Elt Ideal) ((c : Thread nD τ).loc (Pipeline.arrRef spec0 0))) (t : Fin cfg0.N) (p : Fin 2000) (k : Fin 128)
    (r : Fin 50000) (hr : r.val = t.val * 2000 + p.val) :
    ((cfg0.win 0).blk t).view.read (Elt Ideal) A (ix2 p k) = A (ix2 r k) := by
  obtain ⟨e00, e01, e10, e11, -⟩ := index_facts t
  show A (((cfg0.win 0).blk t).view.emb (ix2 p k)) = A (ix2 r k)
  have h : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 128 + 1 * k.val = k.val; omega
  rw [h]

theorem block_rows₁ (c : Dev nD) (A : Buf (Elt Ideal) ((c : Thread nD τ).loc (Pipeline.arrRef spec0 1))) (t : Fin cfg0.N) (p : Fin 2000) (k : Fin 128)
    (r : Fin 50000) (hr : r.val = t.val * 2000 + p.val) :
    ((cfg0.win 1).blk t).view.read (Elt Ideal) A (ix2 p k) = A (ix2 r k) := by
  obtain ⟨e00, e01, e10, e11, -⟩ := index_facts t
  show A (((cfg0.win 1).blk t).view.emb (ix2 p k)) = A (ix2 r k)
  have h : ((cfg0.win 1).blk t).view.emb (ix2 p k) = ix2 r k := by
    funext a; apply Fin.ext
    match a with
    | ⟨0, _⟩ => show win0_1.index t (0 : Fin 2) * 2000 + 1 * p.val = r.val; omega
    | ⟨1, _⟩ => show win0_1.index t (1 : Fin 2) * 128 + 1 * k.val = k.val; omega
  rw [h]

theorem block_whole₂ (c : Dev nD) (A : Buf (Elt Ideal) ((c : Thread nD τ).loc (Pipeline.arrRef spec0 2))) (t : Fin cfg0.N) (k q : Fin 128) :
    ((cfg0.win 2).blk t).view.read (Elt Ideal) A (ix2 k q) = A (ix2 k q) := by
  obtain ⟨-, -, -, -, e0, e1, -⟩ := index_facts t
  show A (((cfg0.win 2).blk t).view.emb (ix2 k q)) = A (ix2 k q)
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  rw [h]

theorem block_whole₄ (c : Dev nD) (A : Buf (Elt Ideal) ((c : Thread nD τ).loc (Pipeline.arrRef spec0 4))) (t : Fin cfg0.N) (k q : Fin 128) :
    ((cfg0.win 4).blk t).view.read (Elt Ideal) A (ix2 k q) = A (ix2 k q) := by
  obtain ⟨-, -, -, -, -, -, -, -, e0, e1, -⟩ := index_facts t
  show A (((cfg0.win 4).blk t).view.emb (ix2 k q)) = A (ix2 k q)
  have h : ((cfg0.win 4).blk t).view.emb (ix2 k q) = ix2 k q := by
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  rw [h]

theorem block_row₃ (c : Dev nD) (A : Buf (Elt Ideal) ((c : Thread nD τ).loc (Pipeline.arrRef spec0 3))) (t : Fin cfg0.N) (q : Fin 128) :
    ((cfg0.win 3).blk t).view.read (Elt Ideal) A (ix2 (0 : Fin 1) q) = A (ix2 (0 : Fin 1) q) := by
  obtain ⟨-, -, -, -, -, -, e0, e1, -⟩ := index_facts t
  show A (((cfg0.win 3).blk t).view.emb (ix2 (0 : Fin 1) q)) = A (ix2 (0 : Fin 1) q)
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  rw [h]

theorem block_row₅ (c : Dev nD) (A : Buf (Elt Ideal) ((c : Thread nD τ).loc (Pipeline.arrRef spec0 5))) (t : Fin cfg0.N) (q : Fin 128) :
    ((cfg0.win 5).blk t).view.read (Elt Ideal) A (ix2 (0 : Fin 1) q) = A (ix2 (0 : Fin 1) q) := by
  obtain ⟨-, -, -, -, -, -, -, -, -, -, e0, e1, -⟩ := index_facts t
  show A (((cfg0.win 5).blk t).view.emb (ix2 (0 : Fin 1) q)) = A (ix2 (0 : Fin 1) q)
  have h : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 128 + 1 * q.val = q.val; omega
  rw [h]

/-! ## The same, at the arrays the region finds -/

/-- Rows of the node table. -/
theorem read_nodes (c : Dev nD) (t : Fin cfg0.N) (p : Fin 2000) (k : Fin 128) (r : Fin 50000) (hr : r.val = t.val * 2000 + p.val) :
    iblk m c 0 t (ix2 p k) = V m c main_arg0 (ix2 r k) :=
  block_rows₀ c (V m c main_arg0) t p k r hr
/-- Rows of the neighbourhood aggregate. -/
theorem read_aggregate (c : Dev nD) (t : Fin cfg0.N) (p : Fin 2000) (k : Fin 128) (r : Fin 50000) (hr : r.val = t.val * 2000 + p.val) :
    iblk m c 1 t (ix2 p k) = V m c main_v11 (ix2 r k) :=
  block_rows₁ c (V m c main_v11) t p k r hr
/-- The first transposed weights, whole. -/
theorem read_weights₁ (c : Dev nD) (t : Fin cfg0.N) (k q : Fin 128) : iblk m c 2 t (ix2 k q) = V m c main_v13 (ix2 k q) :=
  block_whole₂ c (V m c main_v13) t k q
/-- The second transposed weights, whole. -/
theorem read_weights₂ (c : Dev nD) (t : Fin cfg0.N) (k q : Fin 128) : iblk m c 4 t (ix2 k q) = V m c main_v15 (ix2 k q) :=
  block_whole₄ c (V m c main_v15) t k q
/-- The first bias row. -/
theorem read_bias₁ (c : Dev nD) (t : Fin cfg0.N) (q : Fin 128) : iblk m c 3 t (ix2 (0 : Fin 1) q) = V m c main_v16 (ix2 (0 : Fin 1) q) :=
  block_row₃ c (V m c main_v16) t q
/-- The second bias row. -/
theorem read_bias₂ (c : Dev nD) (t : Fin cfg0.N) (q : Fin 128) : iblk m c 5 t (ix2 (0 : Fin 1) q) = V m c main_v17 (ix2 (0 : Fin 1) q) :=
  block_row₅ c (V m c main_v17) t q

end Cert.KernelIdeal.BlockReads

end
-- ==== Proof.BlocksToArray.lean ====
/-
  From the 25 blocks to the whole output array.

  At grid point `t` the body writes back a 2000 × 128 block whose entry (p, q) is the layer's entry (2000·t + p, q):
  the loaded rows of the node table and of the aggregate are rows 2000·t + p of those arrays, the loaded weights are
  the transposes of the weights as launched and the loaded bias rows the biases as launched, so the body's result at
  (p, q) is the layer of whole arrays at that row. The output's block at point `t` is block `t` of its array, and
  every row `r` of the 50000 lies in block `r / 2000`, which some point writes; blocks of different points do not
  meet. Hence after the run the output array IS the layer, as one function of the node table, the aggregate the
  region found, and the weights and biases as launched — and the arguments are as they were.
-/
import proofs.«158024_j9105330667541_1_alg».proof.Proof.Gen.KernelIdeal.Value
import proofs.«158024_j9105330667541_1_alg».proof.Proof.BlockPayload
import proofs.«158024_j9105330667541_1_alg».proof.Proof.RegionEntry
import proofs.«158024_j9105330667541_1_alg».proof.Proof.BlockReads

noncomputable section

namespace Cert.KernelIdeal.LayerValue

open Cert.KernelIdeal Cert.KernelIdeal.Gen Idealize.ShloMosaic Idealize.ShloMosaic.TcCoe Idealize.SL.Sem
open Idealize.ShloMosaic.ValueIdx Cert.BiInteraction Cert.KernelIdeal.BlockValue Cert.KernelIdeal.BlockReads
open Idealize.ShloMosaic.Pipeline (Dat)

variable (m : (ℓ : Loc nD τ sig) → Buf (Elt Ideal) ℓ) (ρ : Dev nD → PrngReg)

/-- The body reads and writes its buffers from their origin. -/
theorem origin : (![0, 0] : Fin 2 → Nat) = fun _ => 0 := funext fun a => by fin_cases a <;> rfl

/-- The array the kernel's output ends holding: the layer of the node table and the weights and biases as launched,
    and of the aggregate as the region finds it. -/
def result (c : Dev nD) : S50000x128.Idx → EReal :=
  layer (m ((c : Thread nD τ).loc main_arg0)) (V m c main_v11) (m ((c : Thread nD τ).loc main_arg2)) (m ((c : Thread nD τ).loc main_arg3)) (m ((c : Thread nD τ).loc main_arg4)) (m ((c : Thread nD τ).loc main_arg5))

/-! ## Point `t` writes block `t` of the layer -/

/-- WHAT POINT `t` WRITES BACK is block `t` of the layer. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero origin]
  simp only [View.ld_unit_zero (S := S2000x128) origin, View.ld_unit_zero (S := S128x128) origin, View.ld_unit_zero (S := S1x128) origin]
  funext y
  obtain ⟨p, q, rfl⟩ : ∃ (p : Fin 2000) (q : Fin 128), y = ix2 p q := ⟨y 0, y 1, eq_ix2 y⟩
  have ht : t.val < 25 := lt_of_lt_of_eq t.isLt N_0
  obtain ⟨-, -, -, -, -, -, -, -, -, -, -, -, e60, e61⟩ := index_facts t
  have hout : ((cfg0.win 6).blk t).view.emb (ix2 p q) = ix2 (⟨t.val * 2000 + p.val, by omega⟩ : Fin 50000) q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  show k0_pay1 (F := Ideal) (iblk m c 0 t) (iblk m c 1 t) (iblk m c 2 t) (iblk m c 4 t) (iblk m c 3 t) (iblk m c 5 t) (ix2 p q)
    = result m c (((cfg0.win 6).blk t).view.emb (ix2 p q))
  rw [hout]
  unfold result
  refine block_eq_layer (m ((c : Thread nD τ).loc main_arg0)) (V m c main_v11) (m ((c : Thread nD τ).loc main_arg2)) (m ((c : Thread nD τ).loc main_arg3)) (m ((c : Thread nD τ).loc main_arg4)) (m ((c : Thread nD τ).loc main_arg5))
    (iblk m c 0 t) (iblk m c 1 t) (iblk m c 2 t) (iblk m c 4 t) (iblk m c 3 t) (iblk m c 5 t)
    (⟨t.val * 2000 + p.val, by omega⟩ : Fin 50000) p q ?_ ?_ ?_ ?_ ?_ ?_
  · intro k
    refine (read_nodes m c t p k (⟨t.val * 2000 + p.val, by omega⟩ : Fin 50000) rfl).trans ?_
    rw [V_main_arg0]
  · intro k
    exact read_aggregate m c t p k (⟨t.val * 2000 + p.val, by omega⟩ : Fin 50000) rfl
  · intro k
    exact (read_weights₁ m c t k q).trans (Cert.KernelIdeal.RegionEntry.weights₁ m c k q)
  · intro k
    exact (read_weights₂ m c t k q).trans (Cert.KernelIdeal.RegionEntry.weights₂ m c k q)
  · exact (read_bias₁ m c t q).trans (Cert.KernelIdeal.RegionEntry.bias₁ m c q)
  · exact (read_bias₂ m c t q).trans (Cert.KernelIdeal.RegionEntry.bias₂ m c q)

/-! ## The 25 blocks cover the rows -/

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v18).slice (win0_6.rect t)).set ↔ _
  rw [View.set_slice_whole, Rect.mem_set_unit]
  exact Iff.rfl

/-- Each of the 25 row blocks is some point's. -/
theorem index_onto : ∀ b : Fin 25, ∃ t : Fin cfg0.N, win0_6.index t = ![b.val, 0] :=
  (by decide +kernel : ∀ b : Fin 25, ∃ t : Fin grid0.N, win0_6.index t = ![b.val, 0])

/-- Every index of the output array is in the block of a point that writes back: row `r` is in block `r / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := index_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-! ## The array after the run, and the run -/

/-- THE OUTPUT ARRAY after the run is the layer. -/
theorem final (c : Dev nD) : (dats m 0 c).arrAt 6 cfg0.N = result m c :=
  (dats m 0 c).arrAt_eq_of_cover 6 (result m c) (fun t _ => flushed_eq m c t) cover

/-- The kernel's run, re-posted: every weakly fair execution terminates with the output array at the layer and the
    arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.LayerValue

end
-- ==== Proof.SharedAggregate.lean ====
/-
  The kernel and the reference aggregate neighbourhoods by the very same operations.

  Before its region the kernel's program wraps negative source indices, gathers the source rows of the node table,
  scales each by its edge weight, and sums the scaled rows into their destination rows of a zero table. The reference
  does exactly this, operation for operation and literal for literal, before its two matrix products. So the array
  the kernel's region finds in its second window IS the reference's aggregate stage of the same four arguments: the two
  terms differ only in which program's copy of each shape and index record they name, and the records hold the same
  data. Nothing about gathering or summing is opened; the equation is between the two compositions as written.
-/
import proofs.«158024_j9105330667541_1_alg».proof.Proof.Gen.KernelIdeal.Frame
import proofs.«158024_j9105330667541_1_alg».proof.Proof.Gen.ReferenceIdeal.Read
import Idealize.ShloMosaic.Lib.StableHlo.Run

noncomputable section

namespace Cert.KernelIdeal.SharedAggregate

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- What the region finds in the aggregate's array is the reference's aggregate stage of the node table, the edge
    weights, and the source and destination indices as launched. -/
theorem aggregate_eq (c : Dev nD) :
    (V m c main_v11 : S50000x128.Idx → EReal)
      = Cert.ReferenceIdeal.Read.val_main_v11 (F := Ideal) (m ((c : Thread nD τ).loc main_arg0)) (m ((c : Thread nD τ).loc main_arg1)) (m ((c : Thread nD τ).loc main_arg6)) (m ((c : Thread nD τ).loc main_arg7)) := by
  dsimp only [Gen.V, Gen.hostOps0]
  after_results
  unfold Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_cst
  rfl

end Cert.KernelIdeal.SharedAggregate

end
-- ==== Proof.lean ====
/-
  A bi-interaction graph layer: the tiled kernel against its reference, on the extended reals.

  Both programs first aggregate neighbourhoods — gather each edge's source row of the node table `E`, scale it by the
  edge's weight, and sum the scaled rows into their destination rows — giving a table `N` of the shape of `E`. Then
  they compute, for node `r` and output feature `j`,

      out[r, j] = ℓ( Σₖ (E[r,k] + N[r,k]) · W₁[j,k] + b₁[j] )  +  ℓ( Σₖ (E[r,k] · N[r,k]) · W₂[j,k] + b₂[j] ),

  `ℓ` the leaky rectifier. The reference does so with two whole matrix products; the kernel cuts the 50000 rows into
  25 blocks of 2000 and, per block, multiplies against transposed weights held in a narrower float format, with the
  biases laid out as single rows. On the extended reals a change of float format is the identity, a matrix product
  into a zero accumulator is a plain sum over the contracted index, and row `r` of the result depends on row `r` of
  `E` and `N` only, so the tiling changes nothing. The aggregation is the same composition of operations in both
  programs and is never opened: it enters both sides as one array. No law used needs the inputs to be finite, so the
  precondition is not consulted.

  The pieces: `BiInteraction` (the layer as one function), `ReferenceIsSpec` (the reference's result is the layer),
  `BlockPayload` (the kernel body's result on a block, entry by entry), `RegionEntry` and `BlockReads` (what the
  kernel's windows hold and where their blocks sit), `BlocksToArray` (the 25 blocks make the whole array),
  `SharedAggregate` (the two aggregates are one term). Each program terminates without fault and leaves its arguments
  unchanged: the kernel's runs are the generated frame runs, the reference's its generated run with the result dropped.
  Read over the extended reals, the kernel is its own printed text: no operation was rewritten on the way, so there
  is nothing further to preserve.
-/
import proofs.«158024_j9105330667541_1_alg».proof.Defs
import proofs.«158024_j9105330667541_1_alg».proof.Proof.Gen.Kernel
import proofs.«158024_j9105330667541_1_alg».proof.Proof.Gen.Kernel.Skeleton
import proofs.«158024_j9105330667541_1_alg».proof.Proof.Gen.Kernel.Launch
import proofs.«158024_j9105330667541_1_alg».proof.Proof.Gen.Kernel.Points
import proofs.«158024_j9105330667541_1_alg».proof.Proof.Gen.Kernel.Frame
import proofs.«158024_j9105330667541_1_alg».proof.Proof.Gen.KernelIdeal
import proofs.«158024_j9105330667541_1_alg».proof.Proof.Gen.KernelIdeal.Skeleton
import proofs.«158024_j9105330667541_1_alg».proof.Proof.Gen.KernelIdeal.Launch
import proofs.«158024_j9105330667541_1_alg».proof.Proof.Gen.KernelIdeal.Points
import proofs.«158024_j9105330667541_1_alg».proof.Proof.Gen.KernelIdeal.Frame
import proofs.«158024_j9105330667541_1_alg».proof.Proof.Gen.ReferenceIdeal
import proofs.«158024_j9105330667541_1_alg».proof.Proof.Gen.Pre_finite_inputs
import proofs.«158024_j9105330667541_1_alg».proof.Proof.Gen.KernelIdeal.Value
import proofs.«158024_j9105330667541_1_alg».proof.Proof.Gen.ReferenceIdeal.Run
import proofs.«158024_j9105330667541_1_alg».proof.Proof.Gen.ReferenceIdeal.Read
import proofs.«158024_j9105330667541_1_alg».proof.Proof.ReferenceIsSpec
import proofs.«158024_j9105330667541_1_alg».proof.Proof.BlocksToArray
import proofs.«158024_j9105330667541_1_alg».proof.Proof.SharedAggregate
import Idealize.ShloMosaic.Adequacy
import Idealize.ShloMosaic.Init

noncomputable section

namespace Cert.Proof

open Idealize.ShloMosaic Idealize.SL.Sem

/-- The kernel as printed runs to the end without fault, its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten in passing to the extended reals, so there is nothing to preserve. -/
theorem preserves : Cert.preserves_Kernel_KernelIdeal := trivial

/-- From memories that agree on the arguments, the kernel's output array ends at the layer of its arguments and of the
    aggregate its region found; the reference's result at the layer of ITS arguments and of its own aggregate stage.
    The arguments agree, and the two aggregates are the same composition of the same arguments: one array. -/
theorem algebraic : Cert.algebraic_KernelIdeal_ReferenceIdeal := by
  intro m ρ m' ρ' _ hagree
  refine ⟨Cert.KernelIdeal.LayerValue.result m, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v34_eq, Cert.ReferenceIdeal.LayerValue.result_eq_layer,
    h0, h1, h2, h3, h4, h5, h6, h7]
  unfold Cert.KernelIdeal.LayerValue.result
  rw [Cert.KernelIdeal.SharedAggregate.aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
